-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x256 .f32) (main_arg4 : FVec F S128 .f32) (main_arg5 : FVec F S128x256 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S128x128 : Shape := ⟨2, ![128, 128]⟩
abbrev S1x128 : Shape := ⟨2, ![1, 128]⟩
abbrev S4000x128 : Shape := ⟨2, ![4000, 128]⟩

abbrev nBuf : Space → Nat
  | .hbm => 81
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000x1, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S1x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000, .f32⟩
  | .hbm, ⟨68, _⟩ => ⟨S1600000x1, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S128x128, .f32⟩
  | .hbm, ⟨79, _⟩ => ⟨S1x128, .f32⟩
  | .hbm, ⟨80, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S256x128 : Shape := ⟨2, ![256, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x128, .f32⟩
  | .hbm, ⟨18, _⟩ => ⟨S100000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x256, .f32⟩
  | .hbm, ⟨33, _⟩ => ⟨S256x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S1600000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x256, .f32⟩
  | .hbm, ⟨67, _⟩ => ⟨S256x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRun.lean ====
/-
  The idealized kernel program's run with its RESULT kept.

  The program is four segments: host operations, a first kernel region over 25 row blocks, host operations, a second
  region over 25 row blocks. After the last segment every unscoped buffer of a core holds the contents `W4`: the fold of
  the four segments over the launch memory (a host stretch applies its operations; a region replaces its arrays by what
  its write-backs leave). The generated frame reads only the seven argument arrays off that final state; here the result
  array `main_v59` is read off it as well, at `V4 … main_v59`. Nothing else changes: the segments, the launch and the
  reading of the final state are the generated frame's own.
-/
import proofs.«112409_j83408264888606_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the fold's contents and the
    argument arrays as launched. -/
theorem run_result : θ_run defs (onTc (τ := τ) (main (F := F))) ⟨m, fun _ => 0, ρ⟩ (fun r => ∀ c : Dev nD,
      r.2.mem ((c.tc : Thread nD τ).loc main_v59) = V4 m ρ c main_v59
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v59 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.Payload.lean ====
/-
  What one grid point computes, entry by entry.

  A grid point holds a block of 4000 rows of the features (`x`) and of the aggregate (`a`), the two transposed halves
  of the weight (`wx`, `wa`: 128 × 128) and the bias row (`b`: 1 × 128), and stores

      (x · wx  +  a · wa)  +  b            (first region: followed by the maximum with 0)

  Over the extended reals a change of float format is the identity, a matrix product into a zero accumulator is the
  plain sum of products over the contracted axis, and a cast of a shape to itself is the identity; so entry (p, q) is

      (∑ₖ x[p,k] · wx[k,q]  +  ∑ₖ a[p,k] · wa[k,q])  +  b[0,q],         k < 128.
-/
import proofs.«112409_j83408264888606_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

/-- The block product's operand indices: the left operand at (row of the result, contraction index). -/
theorem lhs_0 (i : S4000x128.Idx) (z : dot_S4000x128_S128x128_S4000x128_1_0_0_1_n_n.contr.Idx) :
    (dot_S4000x128_S128x128_S4000x128_1_0_0_1_n_n.lhsIdx i z 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_1 (i : S4000x128.Idx) (z : dot_S4000x128_S128x128_S4000x128_1_0_0_1_n_n.contr.Idx) :
    (dot_S4000x128_S128x128_S4000x128_1_0_0_1_n_n.lhsIdx i z 1).val = (z ⟨0, by decide⟩).val :=
  dot_S4000x128_S128x128_S4000x128_1_0_0_1_n_n.lhsIdx_val_of_single rfl i z
/-- The right operand at (contraction index, column of the result). -/
theorem rhs_0 (i : S4000x128.Idx) (z : dot_S4000x128_S128x128_S4000x128_1_0_0_1_n_n.contr.Idx) :
    (dot_S4000x128_S128x128_S4000x128_1_0_0_1_n_n.rhsIdx i z 0).val = (z ⟨0, by decide⟩).val :=
  dot_S4000x128_S128x128_S4000x128_1_0_0_1_n_n.rhsIdx_val_of_single rfl i z
theorem rhs_1 (i : S4000x128.Idx) (z : dot_S4000x128_S128x128_S4000x128_1_0_0_1_n_n.contr.Idx) :
    (dot_S4000x128_S128x128_S4000x128_1_0_0_1_n_n.rhsIdx i z 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator, at entry (p, q): the sum over k of left[p,k] · right[k,q]. -/
theorem matmul_block_apply (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row spread over the block's rows, at entry (p, q): the row's entry q. -/
theorem bias_block_apply (b : FVec Ideal S1x128 .f32) (p : Fin 4000) (q : Fin 128) :
    broadcastTo S4000x128 b broadcasts_S1x128_S4000x128 (ix2 p q) = b (ix2 (0 : Fin 1) q) := by
  refine broadcastTo_apply b broadcasts_S1x128_S4000x128 (ix2 p q) (ix2 (0 : Fin 1) q) fun a => ?_
  match a with
  | ⟨0, _⟩ => rfl
  | ⟨1, _⟩ => rfl

/-- The first region's stored value at entry (p, q) of its block. -/
theorem pay0_apply (v0 v2 : Vec Ideal S4000x128 .f32) (v5 v8 : Vec Ideal S128x128 .f32) (v14 : Vec Ideal S1x128 .f32)
    (p : Fin 4000) (q : Fin 128) :
    k0_pay1 (F := Ideal) v0 v2 v5 v8 v14 (ix2 p q)
      = max ((∑ k : Fin 128, v0 (ix2 p k) * v5 (ix2 k q) + ∑ k : Fin 128, v2 (ix2 p k) * v8 (ix2 k q)) + v14 (ix2 (0 : Fin 1) q)) 0 := by
  unfold k0_pay1
  rw [maximumf_apply, addf_apply, addf_apply, matmul_block_apply, matmul_block_apply, bias_block_apply, broadcast_apply]
  simp only [shapeCast_self, truncf_apply]
  rw [show (FloatOps.ofBits (F := Ideal) .f32 0x00000000#32) = (0 : EReal) from Ideal.ofBits_zero_f32]

/-- The second region's stored value at entry (p, q) of its block: the same without the maximum. -/
theorem pay1_apply (v0 v3 : Vec Ideal S4000x128 .f32) (v6 v9 : Vec Ideal S128x128 .f32) (v15 : Vec Ideal S1x128 .f32)
    (p : Fin 4000) (q : Fin 128) :
    k1_pay1 (F := Ideal) v0 v3 v6 v9 v15 (ix2 p q)
      = (∑ k : Fin 128, v0 (ix2 p k) * v6 (ix2 k q) + ∑ k : Fin 128, v3 (ix2 p k) * v9 (ix2 k q)) + v15 (ix2 (0 : Fin 1) q) := by
  unfold k1_pay1
  rw [addf_apply, addf_apply, matmul_block_apply, matmul_block_apply, bias_block_apply]
  simp only [shapeCast_self, truncf_apply]

end Cert.KernelIdeal.Hand

end
-- ==== Proof.Spec.lean ====
/-
  One graph-convolution layer as a single function of its arrays, index by index, over the extended reals.

  For node features `feat` and aggregated neighbour features `agg` (both N × 128, N = 100000), a weight matrix
  `W` (128 × 256) and a bias `b` (128), entry (p, q) of the layer is

      (∑ₖ feat[p,k] · W[q,k]  +  ∑ₖ agg[p,k] · W[q,128+k])  +  b[q],          k < 128,

  followed, for the hidden layer, by a maximum with 0. This is `concat(feat, agg) · Wᵀ + b`: a sum over the 256 columns
  of the concatenation splits into the sum over its first 128 columns (those of `feat`) and the sum over its last 128
  (those of `agg`); the split uses only that addition of extended reals is commutative and associative, so nothing
  here asks for finiteness.

  `linT` is the same entry written over the two 128 × 128 halves of `W` already transposed (`Wx[k,q] = W[q,k]`,
  `Wagg[k,q] = W[q,128+k]`) and the bias as a 1 × 128 row: the form in which a row block of the result is computed from
  a row block of `feat` and of `agg`.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

abbrev SNode : Shape := ⟨2, ![100000, 128]⟩
abbrev SWeight : Shape := ⟨2, ![128, 256]⟩
abbrev SHalf : Shape := ⟨2, ![128, 128]⟩
abbrev SBias : Shape := ⟨1, ![128]⟩
abbrev SBiasRow : Shape := ⟨2, ![1, 128]⟩

/-- Column `k` of the left half of a 256-column row. -/
abbrev colL (k : Fin 128) : Fin 256 := ⟨k.val, by omega⟩
/-- Column `k` of the right half of a 256-column row. -/
abbrev colR (k : Fin 128) : Fin 256 := ⟨128 + k.val, by omega⟩

/-- Entry (p, q) of the layer before the activation. -/
def lin (feat agg : SNode.Idx → EReal) (W : SWeight.Idx → EReal) (b : SBias.Idx → EReal) (p : Fin 100000) (q : Fin 128) : EReal :=
  (∑ k : Fin 128, feat (ix2 p k) * W (ix2 q (colL k)) + ∑ k : Fin 128, agg (ix2 p k) * W (ix2 q (colR k))) + b (ix1 q)

/-- The layer: `lin` at every entry, then the maximum with 0 when `relu`. -/
def dense (relu : Bool) (feat agg : SNode.Idx → EReal) (W : SWeight.Idx → EReal) (b : SBias.Idx → EReal) : SNode.Idx → EReal :=
  fun i => if relu then max (lin feat agg W b (i 0) (i 1)) 0 else lin feat agg W b (i 0) (i 1)

/-- Entry (p, q) before the activation, over the transposed halves of the weight and the bias as a row. -/
def linT (feat agg : SNode.Idx → EReal) (Wx Wagg : SHalf.Idx → EReal) (b2 : SBiasRow.Idx → EReal) (p : Fin 100000) (q : Fin 128) : EReal :=
  (∑ k : Fin 128, feat (ix2 p k) * Wx (ix2 k q) + ∑ k : Fin 128, agg (ix2 p k) * Wagg (ix2 k q)) + b2 (ix2 (0 : Fin 1) q)

/-- The layer over the transposed halves. -/
def denseT (relu : Bool) (feat agg : SNode.Idx → EReal) (Wx Wagg : SHalf.Idx → EReal) (b2 : SBiasRow.Idx → EReal) : SNode.Idx → EReal :=
  fun i => if relu then max (linT feat agg Wx Wagg b2 (i 0) (i 1)) 0 else linT feat agg Wx Wagg b2 (i 0) (i 1)

/-- When the halves are the transposed halves of `W` and the row is `b`, the two forms of an entry agree. -/
theorem linT_eq_lin (feat agg : SNode.Idx → EReal) (W : SWeight.Idx → EReal) (b : SBias.Idx → EReal)
    (Wx Wagg : SHalf.Idx → EReal) (b2 : SBiasRow.Idx → EReal)
    (hx : ∀ (k q : Fin 128), Wx (ix2 k q) = W (ix2 q (colL k)))
    (hagg : ∀ (k q : Fin 128), Wagg (ix2 k q) = W (ix2 q (colR k)))
    (hb : ∀ q : Fin 128, b2 (ix2 (0 : Fin 1) q) = b (ix1 q)) (p : Fin 100000) (q : Fin 128) :
    linT feat agg Wx Wagg b2 p q = lin feat agg W b p q := by
  unfold linT lin
  rw [hb]
  congr 2
  · exact Finset.sum_congr rfl fun k _ => by rw [hx]
  · exact Finset.sum_congr rfl fun k _ => by rw [hagg]

/-- So the two forms of the layer are one function. -/
theorem denseT_eq_dense (relu : Bool) (feat agg : SNode.Idx → EReal) (W : SWeight.Idx → EReal) (b : SBias.Idx → EReal)
    (Wx Wagg : SHalf.Idx → EReal) (b2 : SBiasRow.Idx → EReal)
    (hx : ∀ (k q : Fin 128), Wx (ix2 k q) = W (ix2 q (colL k)))
    (hagg : ∀ (k q : Fin 128), Wagg (ix2 k q) = W (ix2 q (colR k)))
    (hb : ∀ q : Fin 128, b2 (ix2 (0 : Fin 1) q) = b (ix1 q)) :
    denseT relu feat agg Wx Wagg b2 = dense relu feat agg W b := by
  funext i
  have e := linT_eq_lin feat agg W b Wx Wagg b2 hx hagg hb (i 0) (i 1)
  unfold denseT dense
  rw [e]

/-- A sum over 256 columns is the sum over the left 128 plus the sum over the right 128. -/
theorem sum_split {M : Type*} [AddCommMonoid M] (f : Fin 256 → M) :
    ∑ k : Fin 256, f k = ∑ k : Fin 128, f (colL k) + ∑ k : Fin 128, f (colR k) := by
  have h := Fin.sum_univ_add (M := M) (a := 128) (b := 128) f
  refine h.trans ?_
  congr 1

end Cert.GraphConv

end
-- ==== Proof.Region0.lean ====
/-
  The first kernel region's output array, as one function of the arrays the region finds.

  The region runs over 25 grid points; point t holds rows 4000·t … 4000·t + 3999 of the features and of the aggregate,
  the two 128 × 128 weight halves and the 1 × 128 bias row whole, and writes back rows 4000·t … 4000·t + 3999 of the
  output. What it writes at row r of its block and column q is the layer's entry (4000·t + r, q) over the transposed
  halves (`denseT`, with the maximum with 0). Row i of the output lies in the block of point i / 4000, and 25 · 4000 = 100000, so the
  blocks cover the array: after the region the output array IS `denseT` of the arrays at entry.
-/
import proofs.«112409_j83408264888606_1_alg».proof.Proof.Gen.KernelIdeal.Frame
import proofs.«112409_j83408264888606_1_alg».proof.Proof.Payload
import proofs.«112409_j83408264888606_1_alg».proof.Proof.Spec
import Idealize.ShloMosaic.Lib.Pipeline.Value

set_option maxRecDepth 16384

noncomputable section

namespace Cert.KernelIdeal.Hand

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The block a window holds at point t: the row windows hold block t of their array, the others their whole array. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One point's stored value against the layer: when the blocks are rows 4000·T … of `feat` and `agg` and the
    halves and the bias row whole, entry y of the stored block is the layer's entry i = (4000·T + y₀, y₁). -/
theorem point_value0 (x0 x1 : Vec Ideal S4000x128 .f32) (x2 x3 : Vec Ideal S128x128 .f32) (x4 : Vec Ideal S1x128 .f32)
    (feat agg : SNode.Idx → EReal) (Wx Wagg : SHalf.Idx → EReal) (b2 : SBiasRow.Idx → EReal) (T : Nat) (hT : T < 25)
    (h0 : ∀ (p : Fin 4000) (k : Fin 128), x0 (ix2 p k) = feat (ix2 (⟨T * 4000 + p.val, by omega⟩ : Fin 100000) k))
    (h1 : ∀ (p : Fin 4000) (k : Fin 128), x1 (ix2 p k) = agg (ix2 (⟨T * 4000 + p.val, by omega⟩ : Fin 100000) k))
    (h2 : ∀ (k q : Fin 128), x2 (ix2 k q) = Wx (ix2 k q))
    (h3 : ∀ (k q : Fin 128), x3 (ix2 k q) = Wagg (ix2 k q))
    (h4 : ∀ (q : Fin 128), x4 (ix2 (0 : Fin 1) q) = b2 (ix2 (0 : Fin 1) q))
    (y : S4000x128.Idx) (i : SNode.Idx) (hi0 : (i 0).val = T * 4000 + (y 0).val) (hi1 : (i 1).val = (y 1).val) :
    k0_pay1 (F := Ideal) x0 x1 x2 x3 x4 y = denseT true feat agg Wx Wagg b2 i := by
  obtain ⟨p, q, rfl⟩ : ∃ (p : Fin 4000) (q : Fin 128), y = ix2 p q := ⟨y 0, y 1, eq_ix2 y⟩
  have hb : T * 4000 + p.val < 100000 := by have := p.isLt; omega
  have hi : i = ix2 (⟨T * 4000 + p.val, hb⟩ : Fin 100000) q := by
    funext a; apply Fin.ext
    match a with
    | ⟨0, _⟩ => exact hi0
    | ⟨1, _⟩ => exact hi1
  rw [hi, pay0_apply]
  unfold denseT linT
  simp only [h0, h1, h2, h3, h4, if_true]

/-- The features window's block at point t is rows 4000·t … of its array. -/
theorem iblk0_0_apply (c : Dev nD) (t : Fin cfg0.N) (p : Fin 4000) (k : Fin 128) (ht : t.val < 25) :
    (iblk0 V c 0 t : Vec Ideal S4000x128 .f32) (ix2 p k)
      = (V c main_arg0 : SNode.Idx → EReal) (ix2 (⟨t.val * 4000 + p.val, by omega⟩ : Fin 100000) k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 4000 + 1 * p.val = t.val * 4000 + p.val; rw [e0]; omega
  | ⟨1, _⟩ => show win0_0.index t 1 * 128 + 1 * k.val = k.val; rw [e1]; omega

/-- The aggregate window's block at point t is rows 4000·t … of its array. -/
theorem iblk0_1_apply (c : Dev nD) (t : Fin cfg0.N) (p : Fin 4000) (k : Fin 128) (ht : t.val < 25) :
    (iblk0 V c 1 t : Vec Ideal S4000x128 .f32) (ix2 p k)
      = (V c main_v27 : SNode.Idx → EReal) (ix2 (⟨t.val * 4000 + p.val, by omega⟩ : Fin 100000) k) := by
  obtain ⟨-, -, e0, e1, -⟩ := idx_facts0 t
  unfold iblk0
  rw [View.read_apply]
  show V c main_v27 _ = V c main_v27 _
  congr 1
  funext a
  apply Fin.ext
  match a with
  | ⟨0, _⟩ => show win0_1.index t 0 * 4000 + 1 * p.val = t.val * 4000 + p.val; rw [e0]; omega
  | ⟨1, _⟩ => show win0_1.index t 1 * 128 + 1 * k.val = k.val; rw [e1]; omega

/-- The first weight half's window holds its whole array at every point. -/
theorem iblk0_2_apply (c : Dev nD) (t : Fin cfg0.N) (k q : Fin 128) :
    (iblk0 V c 2 t : Vec Ideal S128x128 .f32) (ix2 k q) = (V c main_v29 : SHalf.Idx → EReal) (ix2 k q) := by
  obtain ⟨-, -, -, -, e0, e1, -⟩ := idx_facts0 t
  unfold iblk0
  rw [View.read_apply]
  show V c main_v29 _ = V c main_v29 _
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

/-- The second weight half's window holds its whole array at every point. -/
theorem iblk0_3_apply (c : Dev nD) (t : Fin cfg0.N) (k q : Fin 128) :
    (iblk0 V c 3 t : Vec Ideal S128x128 .f32) (ix2 k q) = (V c main_v31 : SHalf.Idx → EReal) (ix2 k q) := by
  obtain ⟨-, -, -, -, -, -, e0, e1, -⟩ := idx_facts0 t
  unfold iblk0
  rw [View.read_apply]
  show V c main_v31 _ = V c main_v31 _
  congr 1
  funext a
  apply Fin.ext
  match a with
  | ⟨0, _⟩ => show win0_3.index t 0 * 128 + 1 * k.val = k.val; rw [e0]; omega
  | ⟨1, _⟩ => show win0_3.index t 1 * 128 + 1 * q.val = q.val; rw [e1]; omega

/-- The bias row's window holds its whole array at every point. -/
theorem iblk0_4_apply (c : Dev nD) (t : Fin cfg0.N) (q : Fin 128) :
    (iblk0 V c 4 t : Vec Ideal S1x128 .f32) (ix2 (0 : Fin 1) q) = (V c main_v32 : SBiasRow.Idx → EReal) (ix2 (0 : Fin 1) q) := by
  obtain ⟨-, -, -, -, -, -, -, -, e0, e1, -⟩ := idx_facts0 t
  unfold iblk0
  rw [View.read_apply]
  show V c main_v32 _ = V c main_v32 _
  congr 1
  funext a
  apply Fin.ext
  match a with
  | ⟨0, _⟩ => show win0_4.index t 0 * 1 + 1 * 0 = 0; rw [e0]
  | ⟨1, _⟩ => show win0_4.index t 1 * 128 + 1 * q.val = q.val; rw [e1]; omega

/-- The layer of the arrays the region finds. -/
abbrev layer0 (c : Dev nD) : SNode.Idx → EReal :=
  denseT true (V c main_arg0 : SNode.Idx → EReal) (V c main_v27 : SNode.Idx → EReal)
    (V c main_v29 : SHalf.Idx → EReal) (V c main_v31 : SHalf.Idx → EReal) (V c main_v32 : SBiasRow.Idx → EReal)

/-- What point t writes back is block t of the layer. -/
theorem flushed0_eq (c : Dev nD) (t : Fin cfg0.N) :
    (dat0 V c).flushed 5 t = ((cfg0.win 5).blk t).view.read (Elt Ideal) (layer0 V c) := by
  have hN : cfg0.N = 25 := N_0
  have ht : t.val < 25 := hN ▸ t.isLt
  obtain ⟨-, -, -, -, -, -, -, -, -, -, e0, e1⟩ := idx_facts0 t
  show (cfg0.win 5).cut (grid0.coords t) ((dat0 V c).after 5 t) = _
  rw [after0_5]
  unfold out0_5
  rw [View.canon_unit_zero hz0]
  simp only [View.ld_unit_zero (S := S4000x128) hz0, View.ld_unit_zero (S := S128x128) hz0, View.ld_unit_zero (S := S1x128) hz0]
  funext y
  show k0_pay1 (F := Ideal) (iblk0 V c 0 t) (iblk0 V c 1 t) (iblk0 V c 2 t) (iblk0 V c 3 t) (iblk0 V c 4 t) y
    = layer0 V c (((cfg0.win 5).blk t).view.emb y)
  refine point_value0 _ _ _ _ _ _ _ _ _ _ t.val ht (fun p k => iblk0_0_apply V c t p k ht) (fun p k => iblk0_1_apply V c t p k ht)
    (fun k q => iblk0_2_apply V c t k q) (fun k q => iblk0_3_apply V c t k q) (fun q => iblk0_4_apply V c t q) y _ ?_ ?_
  · show win0_5.index t 0 * 4000 + 1 * (y 0).val = t.val * 4000 + (y 0).val
    rw [e0]; omega
  · show win0_5.index t 1 * 128 + 1 * (y 1).val = (y 1).val
    rw [e1]; omega

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v33).slice (win0_5.rect t)).set ↔ _
  rw [View.set_slice_whole, Rect.mem_set_unit]
  exact Iff.rfl

/-- THE OUTPUT ARRAY after the region: the layer of the arrays at entry. -/
theorem final0 (c : Dev nD) : (dat0 V c).arrAt 5 cfg0.N = layer0 V c :=
  (dat0 V c).arrAt_eq_of_cover 5 (layer0 V c) (fun t _ => flushed0_eq V c t) fun i => by
    have hN : cfg0.N = 25 := N_0
    have hi0 : (i 0).val < 100000 := (i 0).isLt
    have hi1 : (i 1).val < 128 := (i 1).isLt
    let t : Fin cfg0.N := ⟨(i 0).val / 4000, by rw [hN]; omega⟩
    obtain ⟨-, -, -, -, -, -, -, -, -, -, e0, e1⟩ := idx_facts0 t
    refine ⟨t, flush0_5 t, ?_⟩
    rw [mem_blk0]
    intro a
    match a with
    | ⟨0, _⟩ =>
      show win0_5.index t 0 * 4000 ≤ (i 0).val ∧ (i 0).val < win0_5.index t 0 * 4000 + 4000
      rw [e0]; show (i 0).val / 4000 * 4000 ≤ (i 0).val ∧ (i 0).val < (i 0).val / 4000 * 4000 + 4000; omega
    | ⟨1, _⟩ =>
      show win0_5.index t 1 * 128 ≤ (i 1).val ∧ (i 1).val < win0_5.index t 1 * 128 + 128
      rw [e1]; omega

end Cert.KernelIdeal.Hand

end
-- ==== Proof.Region1.lean ====
/-
  The second kernel region's output array, as one function of the arrays the region finds.

  The region runs over 25 grid points; point t holds rows 4000·t … 4000·t + 3999 of the features and of the aggregate,
  the two 128 × 128 weight halves and the 1 × 128 bias row whole, and writes back rows 4000·t … 4000·t + 3999 of the
  output. What it writes at row r of its block and column q is the layer's entry (4000·t + r, q) over the transposed
  halves (`denseT`, without the maximum). Row i of the output lies in the block of point i / 4000, and 25 · 4000 = 100000, so the
  blocks cover the array: after the region the output array IS `denseT` of the arrays at entry.
-/
import proofs.«112409_j83408264888606_1_alg».proof.Proof.Gen.KernelIdeal.Frame
import proofs.«112409_j83408264888606_1_alg».proof.Proof.Payload
import proofs.«112409_j83408264888606_1_alg».proof.Proof.Spec
import Idealize.ShloMosaic.Lib.Pipeline.Value

set_option maxRecDepth 16384

noncomputable section

namespace Cert.KernelIdeal.Hand

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The block a window holds at point t: the row windows hold block t of their array, the others their whole array. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One point's stored value against the layer: when the blocks are rows 4000·T … of `feat` and `agg` and the
    halves and the bias row whole, entry y of the stored block is the layer's entry i = (4000·T + y₀, y₁). -/
theorem point_value1 (x0 x1 : Vec Ideal S4000x128 .f32) (x2 x3 : Vec Ideal S128x128 .f32) (x4 : Vec Ideal S1x128 .f32)
    (feat agg : SNode.Idx → EReal) (Wx Wagg : SHalf.Idx → EReal) (b2 : SBiasRow.Idx → EReal) (T : Nat) (hT : T < 25)
    (h0 : ∀ (p : Fin 4000) (k : Fin 128), x0 (ix2 p k) = feat (ix2 (⟨T * 4000 + p.val, by omega⟩ : Fin 100000) k))
    (h1 : ∀ (p : Fin 4000) (k : Fin 128), x1 (ix2 p k) = agg (ix2 (⟨T * 4000 + p.val, by omega⟩ : Fin 100000) k))
    (h2 : ∀ (k q : Fin 128), x2 (ix2 k q) = Wx (ix2 k q))
    (h3 : ∀ (k q : Fin 128), x3 (ix2 k q) = Wagg (ix2 k q))
    (h4 : ∀ (q : Fin 128), x4 (ix2 (0 : Fin 1) q) = b2 (ix2 (0 : Fin 1) q))
    (y : S4000x128.Idx) (i : SNode.Idx) (hi0 : (i 0).val = T * 4000 + (y 0).val) (hi1 : (i 1).val = (y 1).val) :
    k1_pay1 (F := Ideal) x0 x1 x2 x3 x4 y = denseT false feat agg Wx Wagg b2 i := by
  obtain ⟨p, q, rfl⟩ : ∃ (p : Fin 4000) (q : Fin 128), y = ix2 p q := ⟨y 0, y 1, eq_ix2 y⟩
  have hb : T * 4000 + p.val < 100000 := by have := p.isLt; omega
  have hi : i = ix2 (⟨T * 4000 + p.val, hb⟩ : Fin 100000) q := by
    funext a; apply Fin.ext
    match a with
    | ⟨0, _⟩ => exact hi0
    | ⟨1, _⟩ => exact hi1
  rw [hi, pay1_apply]
  unfold denseT linT
  simp only [h0, h1, h2, h3, h4, Bool.false_eq_true, if_false]

/-- The features window's block at point t is rows 4000·t … of its array. -/
theorem iblk1_0_apply (c : Dev nD) (t : Fin cfg1.N) (p : Fin 4000) (k : Fin 128) (ht : t.val < 25) :
    (iblk1 V c 0 t : Vec Ideal S4000x128 .f32) (ix2 p k)
      = (V c main_v33 : SNode.Idx → EReal) (ix2 (⟨t.val * 4000 + p.val, by omega⟩ : Fin 100000) k) := by
  obtain ⟨e0, e1, -⟩ := idx_facts1 t
  unfold iblk1
  rw [View.read_apply]
  show V c main_v33 _ = V c main_v33 _
  congr 1
  funext a
  apply Fin.ext
  match a with
  | ⟨0, _⟩ => show win1_0.index t 0 * 4000 + 1 * p.val = t.val * 4000 + p.val; rw [e0]; omega
  | ⟨1, _⟩ => show win1_0.index t 1 * 128 + 1 * k.val = k.val; rw [e1]; omega

/-- The aggregate window's block at point t is rows 4000·t … of its array. -/
theorem iblk1_1_apply (c : Dev nD) (t : Fin cfg1.N) (p : Fin 4000) (k : Fin 128) (ht : t.val < 25) :
    (iblk1 V c 1 t : Vec Ideal S4000x128 .f32) (ix2 p k)
      = (V c main_v53 : SNode.Idx → EReal) (ix2 (⟨t.val * 4000 + p.val, by omega⟩ : Fin 100000) k) := by
  obtain ⟨-, -, e0, e1, -⟩ := idx_facts1 t
  unfold iblk1
  rw [View.read_apply]
  show V c main_v53 _ = V c main_v53 _
  congr 1
  funext a
  apply Fin.ext
  match a with
  | ⟨0, _⟩ => show win1_1.index t 0 * 4000 + 1 * p.val = t.val * 4000 + p.val; rw [e0]; omega
  | ⟨1, _⟩ => show win1_1.index t 1 * 128 + 1 * k.val = k.val; rw [e1]; omega

/-- The first weight half's window holds its whole array at every point. -/
theorem iblk1_2_apply (c : Dev nD) (t : Fin cfg1.N) (k q : Fin 128) :
    (iblk1 V c 2 t : Vec Ideal S128x128 .f32) (ix2 k q) = (V c main_v55 : SHalf.Idx → EReal) (ix2 k q) := by
  obtain ⟨-, -, -, -, e0, e1, -⟩ := idx_facts1 t
  unfold iblk1
  rw [View.read_apply]
  show V c main_v55 _ = V c main_v55 _
  congr 1
  funext a
  apply Fin.ext
  match a with
  | ⟨0, _⟩ => show win1_2.index t 0 * 128 + 1 * k.val = k.val; rw [e0]; omega
  | ⟨1, _⟩ => show win1_2.index t 1 * 128 + 1 * q.val = q.val; rw [e1]; omega

/-- The second weight half's window holds its whole array at every point. -/
theorem iblk1_3_apply (c : Dev nD) (t : Fin cfg1.N) (k q : Fin 128) :
    (iblk1 V c 3 t : Vec Ideal S128x128 .f32) (ix2 k q) = (V c main_v57 : SHalf.Idx → EReal) (ix2 k q) := by
  obtain ⟨-, -, -, -, -, -, e0, e1, -⟩ := idx_facts1 t
  unfold iblk1
  rw [View.read_apply]
  show V c main_v57 _ = V c main_v57 _
  congr 1
  funext a
  apply Fin.ext
  match a with
  | ⟨0, _⟩ => show win1_3.index t 0 * 128 + 1 * k.val = k.val; rw [e0]; omega
  | ⟨1, _⟩ => show win1_3.index t 1 * 128 + 1 * q.val = q.val; rw [e1]; omega

/-- The bias row's window holds its whole array at every point. -/
theorem iblk1_4_apply (c : Dev nD) (t : Fin cfg1.N) (q : Fin 128) :
    (iblk1 V c 4 t : Vec Ideal S1x128 .f32) (ix2 (0 : Fin 1) q) = (V c main_v58 : SBiasRow.Idx → EReal) (ix2 (0 : Fin 1) q) := by
  obtain ⟨-, -, -, -, -, -, -, -, e0, e1, -⟩ := idx_facts1 t
  unfold iblk1
  rw [View.read_apply]
  show V c main_v58 _ = V c main_v58 _
  congr 1
  funext a
  apply Fin.ext
  match a with
  | ⟨0, _⟩ => show win1_4.index t 0 * 1 + 1 * 0 = 0; rw [e0]
  | ⟨1, _⟩ => show win1_4.index t 1 * 128 + 1 * q.val = q.val; rw [e1]; omega

/-- The layer of the arrays the region finds. -/
abbrev layer1 (c : Dev nD) : SNode.Idx → EReal :=
  denseT false (V c main_v33 : SNode.Idx → EReal) (V c main_v53 : SNode.Idx → EReal)
    (V c main_v55 : SHalf.Idx → EReal) (V c main_v57 : SHalf.Idx → EReal) (V c main_v58 : SBiasRow.Idx → EReal)

/-- What point t writes back is block t of the layer. -/
theorem flushed1_eq (c : Dev nD) (t : Fin cfg1.N) :
    (dat1 V c).flushed 5 t = ((cfg1.win 5).blk t).view.read (Elt Ideal) (layer1 V c) := by
  have hN : cfg1.N = 25 := N_1
  have ht : t.val < 25 := hN ▸ t.isLt
  obtain ⟨-, -, -, -, -, -, -, -, -, -, e0, e1⟩ := idx_facts1 t
  show (cfg1.win 5).cut (grid1.coords t) ((dat1 V c).after 5 t) = _
  rw [after1_5]
  unfold out1_5
  rw [View.canon_unit_zero hz1]
  simp only [View.ld_unit_zero (S := S4000x128) hz1, View.ld_unit_zero (S := S128x128) hz1, View.ld_unit_zero (S := S1x128) hz1]
  funext y
  show k1_pay1 (F := Ideal) (iblk1 V c 0 t) (iblk1 V c 1 t) (iblk1 V c 2 t) (iblk1 V c 3 t) (iblk1 V c 4 t) y
    = layer1 V c (((cfg1.win 5).blk t).view.emb y)
  refine point_value1 _ _ _ _ _ _ _ _ _ _ t.val ht (fun p k => iblk1_0_apply V c t p k ht) (fun p k => iblk1_1_apply V c t p k ht)
    (fun k q => iblk1_2_apply V c t k q) (fun k q => iblk1_3_apply V c t k q) (fun q => iblk1_4_apply V c t q) y _ ?_ ?_
  · show win1_5.index t 0 * 4000 + 1 * (y 0).val = t.val * 4000 + (y 0).val
    rw [e0]; omega
  · show win1_5.index t 1 * 128 + 1 * (y 1).val = (y 1).val
    rw [e1]; omega

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v59).slice (win1_5.rect t)).set ↔ _
  rw [View.set_slice_whole, Rect.mem_set_unit]
  exact Iff.rfl

/-- THE OUTPUT ARRAY after the region: the layer of the arrays at entry. -/
theorem final1 (c : Dev nD) : (dat1 V c).arrAt 5 cfg1.N = layer1 V c :=
  (dat1 V c).arrAt_eq_of_cover 5 (layer1 V c) (fun t _ => flushed1_eq V c t) fun i => by
    have hN : cfg1.N = 25 := N_1
    have hi0 : (i 0).val < 100000 := (i 0).isLt
    have hi1 : (i 1).val < 128 := (i 1).isLt
    let t : Fin cfg1.N := ⟨(i 0).val / 4000, by rw [hN]; omega⟩
    obtain ⟨-, -, -, -, -, -, -, -, -, -, e0, e1⟩ := idx_facts1 t
    refine ⟨t, flush1_5 t, ?_⟩
    rw [mem_blk1]
    intro a
    match a with
    | ⟨0, _⟩ =>
      show win1_5.index t 0 * 4000 ≤ (i 0).val ∧ (i 0).val < win1_5.index t 0 * 4000 + 4000
      rw [e0]; show (i 0).val / 4000 * 4000 ≤ (i 0).val ∧ (i 0).val < (i 0).val / 4000 * 4000 + 4000; omega
    | ⟨1, _⟩ =>
      show win1_5.index t 1 * 128 ≤ (i 1).val ∧ (i 1).val < win1_5.index t 1 * 128 + 128
      rw [e1]; omega

end Cert.KernelIdeal.Hand

end
-- ==== Proof.Agg.lean ====
/-
  The neighbour aggregation of one layer, as one function of the node features and the two edge lists.

  For E = 1600000 edges (src[e] → dst[e]) over N = 100000 nodes and node features `feat` (N × 128):

      deg[u]      = max(#{e : src[e] = u}, 1)                    a scatter-add of ones over `src`, clipped below at 1
      agg[v, j]   = ∑_{e : dst[e] = v}  feat[r(e), j] / deg[r(e)]       a scatter-add over `dst` of the gathered rows

  where r(e) is the row the gather reads for edge e (the start index `src[e]`, wrapped once if negative, read signed and
  clamped into the array). The scatter-adds are carried as they stand: both spellings below apply the same scatter-add to
  their messages, so only the MESSAGES are compared, entry by entry.

  The messages are spelt in two ways:
    `msgsK`:  feat[r(e), j] · (1 / deg)[r(e)]        gather the rows and the reciprocal degrees separately, then multiply;
    `msgsR`:  (feat / deg)[r(e), j]                  divide every row by its degree, then gather.
  A gather reads ONE element of its operand per result element, and the row it reads is the same for the row gather
  (at any column j) and for the degree gather: both clamp the same start index into [0, N − 1]. So both are
  feat[r, j] · (1 · deg[r]⁻¹) against feat[r, j] · deg[r]⁻¹, for deg[r] ≥ 1 — in particular deg[r] ≠ 0, which is all the
  quotient of extended reals asks; no finiteness of `feat` is used.
-/
import Idealize.ShloMosaic.PureOps.Ideal
import Idealize.ShloMosaic.PureOps.Ideal.Laws
import Idealize.ShloMosaic.Lib.ValueIdx
import Idealize.ShloMosaic.Lib.Pipeline.Value
import proofs.«112409_j83408264888606_1_alg».proof.Proof.Spec

noncomputable section

namespace Cert.GraphConv

open Idealize.ShloMosaic Idealize.ShloMosaic.ValueIdx

abbrev SDeg : Shape := ⟨1, ![100000]⟩
abbrev SDegCol : Shape := ⟨2, ![100000, 1]⟩
abbrev SEdge : Shape := ⟨1, ![1600000]⟩
abbrev SEdgeCol : Shape := ⟨2, ![1600000, 1]⟩
abbrev SMsg : Shape := ⟨2, ![1600000, 128]⟩
abbrev SScalar : Shape := ⟨0, ![]⟩

/-- Row gather: result (e, j) reads operand (start[e], j). -/
def gatherRows : GatherDims SNode SEdgeCol SMsg where
  offsetDims := [1]
  collapsedSliceDims := [0]
  operandBatchingDims := []
  startIndicesBatchingDims := []
  startIndexMap := [0]
  indexVectorDim := 1
  sliceSizes := ![1, 128]
/-- Degree gather: result e reads operand start[e]. -/
def gatherDeg : GatherDims SDeg SEdgeCol SEdge where
  offsetDims := []
  collapsedSliceDims := [0]
  operandBatchingDims := []
  startIndicesBatchingDims := []
  startIndexMap := [0]
  indexVectorDim := 1
  sliceSizes := ![1]
/-- Row scatter: update (e, j) lands on (index[e], j). -/
def scatterRows : ScatterDims SNode SEdgeCol SMsg where
  updateWindowDims := [1]
  insertedWindowDims := [0]
  scatterDimsToOperandDims := [0]
  indexVectorDim := 1
/-- Degree scatter: update e lands on index[e]. -/
def scatterDeg : ScatterDims SDeg SEdgeCol SEdge where
  updateWindowDims := []
  insertedWindowDims := [0]
  scatterDimsToOperandDims := [0]
  indexVectorDim := 1

theorem bc_scalar_edge : SScalar.BroadcastsInDim SEdge (![] : Fin 0 → Fin SEdge.rank) := by decide
theorem bc_scalar_deg : SScalar.BroadcastsInDim SDeg (![] : Fin 0 → Fin SDeg.rank) := by decide
theorem bc_scalar_node : SScalar.BroadcastsInDim SNode (![] : Fin 0 → Fin SNode.rank) := by decide
theorem bc_edge_col : SEdge.BroadcastsInDim SEdgeCol (![0] : Fin 1 → Fin SEdgeCol.rank) := by decide
theorem bc_col_msg : SEdgeCol.BroadcastsInDim SMsg (![0, 1] : Fin 2 → Fin SMsg.rank) := by decide
theorem bc_deg_col : SDeg.BroadcastsInDim SDegCol (![0] : Fin 1 → Fin SDegCol.rank) := by decide
theorem bc_degcol_node : SDegCol.BroadcastsInDim SNode (![0, 1] : Fin 2 → Fin SNode.rank) := by decide

/-- The out-degree of every node, clipped below at 1. -/
def deg (src : IVec SEdge 32) : FVec Ideal SDeg .f32 :=
  maximumf
    (Host.scatterAdd scatterDeg (broadcastInDim SDeg ![] bc_scalar_deg (constant SScalar .f32 0x00000000#32))
      (broadcastInDim SEdgeCol ![0] bc_edge_col src)
      (broadcastInDim SEdge ![] bc_scalar_edge (constant SScalar .f32 0x3F800000#32)))
    (broadcastInDim SDeg ![] bc_scalar_deg (constant SScalar .f32 0x3F800000#32))

/-- Its reciprocal, as the quotient of 1 by it. -/
def invDeg (src : IVec SEdge 32) : FVec Ideal SDeg .f32 :=
  Host.divf (broadcastInDim SDeg ![] bc_scalar_deg (constant SScalar .f32 0x3F800000#32)) (deg src)

/-- The gathers' start indices: `src`, a negative entry moved up by N once, as a column. -/
def startIdx (src : IVec SEdge 32) : IVec SEdgeCol 32 :=
  broadcastInDim SEdgeCol ![0] bc_edge_col
    (select (cmpi .slt src (broadcastInDim SEdge ![] bc_scalar_edge (constantI SScalar 32 0#32)))
      (addi src (broadcastInDim SEdge ![] bc_scalar_edge (constantI SScalar 32 100000#32))) src)

/-- The messages, rows and reciprocal degrees gathered separately and multiplied; the reciprocal degrees a parameter. -/
def msgsK (feat : FVec Ideal SNode .f32) (inv : FVec Ideal SDeg .f32) (src : IVec SEdge 32) : FVec Ideal SMsg .f32 :=
  mulf (Host.gather gatherRows feat (startIdx src))
    (broadcastInDim SMsg ![0, 1] bc_col_msg (broadcastInDim SEdgeCol ![0] bc_edge_col (Host.gather gatherDeg inv (startIdx src))))

/-- The messages, every row divided by its degree and then gathered. -/
def msgsR (feat : FVec Ideal SNode .f32) (src : IVec SEdge 32) : FVec Ideal SMsg .f32 :=
  Host.gather gatherRows
    (Host.divf feat (broadcastInDim SNode ![0, 1] bc_degcol_node (broadcastInDim SDegCol ![0] bc_deg_col (deg src))))
    (startIdx src)

/-- The scatter-add of the messages over `dst`, into zeros. -/
def scatterMsgs (msgs : FVec Ideal SMsg .f32) (dst : IVec SEdge 32) : FVec Ideal SNode .f32 :=
  Host.scatterAdd scatterRows (broadcastInDim SNode ![] bc_scalar_node (constant SScalar .f32 0x00000000#32))
    (broadcastInDim SEdgeCol ![0] bc_edge_col dst) msgs

/-- The aggregation in the first spelling. -/
def aggK (feat : FVec Ideal SNode .f32) (src dst : IVec SEdge 32) : FVec Ideal SNode .f32 :=
  scatterMsgs (msgsK feat (invDeg src) src) dst

/-- The aggregation in the second spelling. -/
def aggR (feat : FVec Ideal SNode .f32) (src dst : IVec SEdge 32) : FVec Ideal SNode .f32 :=
  scatterMsgs (msgsR feat src) dst

end Cert.GraphConv

end
-- ==== Proof.AggEq.lean ====
/-
  The two spellings of the messages are one function, and hence the two aggregations.

  A gather reads one element of its operand per result element. For result index (e, j) the row gather reads operand
  (r, j), and the degree gather at e reads operand (r), with the SAME row r: the start index at (e, 0), read signed and
  clamped into [0, N - 1]. So at (e, j) the first spelling is feat[r, j] * (1 / deg[r]) and the second feat[r, j] / deg[r],
  where deg[r] = max s 1 for some s; since 1 <= deg[r], deg[r] is not 0 and both quotients are products with deg[r]⁻¹.
-/
import proofs.«112409_j83408264888606_1_alg».proof.Proof.Agg

noncomputable section

namespace Cert.GraphConv

open Idealize.ShloMosaic Idealize.ShloMosaic.ValueIdx

/-- The pattern 0x3F800000 denotes 1. -/
theorem ofBits_one_f32 : Ideal.ofBits .f32 0x3F800000#32 = 1 := by
  simp [Ideal.ofBits, Ideal.ieee]
  rw [← EReal.coe_mul, ← EReal.coe_one]
  congr 1
  norm_num

/-- The scalar law: against a divisor clipped below at 1, multiplying by the reciprocal is dividing. -/
theorem mul_inv_clip (x s : EReal) : x * Ideal.div 1 (max s 1) = Ideal.div x (max s 1) := by
  have h1 : (1 : EReal) ≤ max s 1 := le_max_right _ _
  have h0 : max s 1 ≠ 0 := fun h => by
    rw [h] at h1
    exact absurd h1 (not_le.mpr zero_lt_one)
  unfold Ideal.div
  rw [if_neg h0, if_neg h0, one_mul]

/-- The row a gather reads for edge `e`: the start index at (e, 0), read signed and clamped into the array. -/
def row (idx : IVec SEdgeCol 32) (e : Fin 1600000) : Fin 100000 :=
  ⟨min (idx (ix2 e (0 : Fin 1))).toInt.toNat (100000 - 1), by omega⟩

/-- The degree gather read at `e`: the operand at the row of `e`. -/
theorem gatherDeg_apply {α : Type} (v : SDeg.Idx → α) (idx : IVec SEdgeCol 32) (e : Fin 1600000) :
    Host.gather gatherDeg v idx (ix1 e) = v (ix1 (row idx e)) := by
  unfold Host.gather
  congr 1
  funext a
  obtain rfl : a = 0 := Subsingleton.elim _ _
  refine Fin.ext ?_
  show gatherDeg.start (ix1 e) idx 0 + gatherDeg.batchCoord (ix1 e) 0 + gatherDeg.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gatherDeg.startIndexMap from List.mem_singleton.mpr rfl)]
  have hsi : gatherDeg.siIdx (ix1 e) ⟨List.idxOf (0 : Fin 1) gatherDeg.startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The row gather read at (e, j): the operand at (row of `e`, j). On axis 0 the clamped start index, no offset; on
    axis 1 no start (it is not in the start index map) and the offset `j`, the one kept axis. -/
theorem gatherRows_apply {α : Type} (x : SNode.Idx → α) (idx : IVec SEdgeCol 32) (e : Fin 1600000) (j : Fin 128) :
    Host.gather gatherRows x idx (ix2 e j) = x (ix2 (row idx e) j) := by
  unfold Host.gather
  congr 1
  funext a
  refine Fin.ext ?_
  match a with
  | ⟨0, _⟩ =>
    show gatherRows.start (ix2 e j) idx 0 + gatherRows.batchCoord (ix2 e j) 0 + gatherRows.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gatherRows.startIndexMap from List.mem_singleton.mpr rfl)]
    have hsi : gatherRows.siIdx (ix2 e j) ⟨List.idxOf (0 : Fin 2) gatherRows.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gatherRows.start (ix2 e j) idx 1 + gatherRows.batchCoord (ix2 e j) 1 + gatherRows.offCoord (ix2 e j) 1 = j.val
    have hnot : (1 : Fin 2) ∉ gatherRows.startIndexMap := by decide
    have hkept : (1 : Fin 2) ∈ gatherRows.sKept :=
      (GatherDims.mem_sKept _ _).mpr ⟨by decide, List.not_mem_nil⟩
    rw [GatherDims.batchCoord_eq_zero _ _ _ List.not_mem_nil]
    unfold GatherDims.start GatherDims.offCoord
    rw [dif_neg hnot, dif_pos hkept]
    simp only [Nat.add_zero, Nat.zero_add]
    rfl

/-! ### The broadcasts read at an index -/

/-- A column broadcast along the rows of the messages reads the column. -/
theorem bc_col_msg_apply {α : Type} (c : SEdgeCol.Idx → α) (e : Fin 1600000) (j : Fin 128) :
    broadcastInDim SMsg ![0, 1] bc_col_msg c (ix2 e j) = c (ix2 e (0 : Fin 1)) :=
  broadcastInDim_apply _ _ c (ix2 e j) (ix2 e (0 : Fin 1)) (fun a => match a with | ⟨0, _⟩ => rfl | ⟨1, _⟩ => rfl)

/-- An edge array as a column reads the edge array. -/
theorem bc_edge_col_apply {α : Type} (c : SEdge.Idx → α) (e : Fin 1600000) :
    broadcastInDim SEdgeCol ![0] bc_edge_col c (ix2 e (0 : Fin 1)) = c (ix1 e) :=
  broadcastInDim_apply _ _ c (ix2 e (0 : Fin 1)) (ix1 e) (fun a => match a with | ⟨0, _⟩ => rfl)

/-- A column broadcast along the rows of the node features reads the column. -/
theorem bc_degcol_node_apply {α : Type} (c : SDegCol.Idx → α) (r : Fin 100000) (j : Fin 128) :
    broadcastInDim SNode ![0, 1] bc_degcol_node c (ix2 r j) = c (ix2 r (0 : Fin 1)) :=
  broadcastInDim_apply _ _ c (ix2 r j) (ix2 r (0 : Fin 1)) (fun a => match a with | ⟨0, _⟩ => rfl | ⟨1, _⟩ => rfl)

/-- A node array as a column reads the node array. -/
theorem bc_deg_col_apply {α : Type} (c : SDeg.Idx → α) (r : Fin 100000) :
    broadcastInDim SDegCol ![0] bc_deg_col c (ix2 r (0 : Fin 1)) = c (ix1 r) :=
  broadcastInDim_apply _ _ c (ix2 r (0 : Fin 1)) (ix1 r) (fun a => match a with | ⟨0, _⟩ => rfl)

/-- The constant 1 broadcast over the nodes reads 1. -/
theorem bc_one_deg (i : SDeg.Idx) :
    broadcastInDim SDeg ![] bc_scalar_deg (constant (F := Ideal) SScalar .f32 0x3F800000#32) i = 1 := by
  rw [broadcastInDim_apply _ _ _ i ix0 (fun a => a.elim0), constant_apply, ofBits_one_f32]

/-! ### The degree and its reciprocal at a node -/

/-- The host quotient of two arrays is the quotient of extended reals at every index. -/
theorem hostDivf_apply {s : Shape} {φ : FTy} (a b : FVec Ideal s φ) (i : s.Idx) :
    Host.divf a b i = Ideal.div (a i) (b i) := rfl

/-- The degree at a node is a maximum with 1. -/
theorem deg_apply (src : IVec SEdge 32) (r : Fin 100000) : ∃ s : EReal, deg src (ix1 r) = max s 1 :=
  ⟨_, by unfold deg; rw [maximumf_apply, bc_one_deg]⟩

/-- The reciprocal degree at a node is the quotient of 1 by the degree there. -/
theorem invDeg_apply (src : IVec SEdge 32) (r : Fin 100000) : invDeg src (ix1 r) = Ideal.div 1 (deg src (ix1 r)) := by
  unfold invDeg
  rw [hostDivf_apply, bc_one_deg]

/-! ### The two spellings agree -/

/-- The messages of the two spellings are one function. -/
theorem msgsK_eq_msgsR (feat : FVec Ideal SNode .f32) (src : IVec SEdge 32) :
    msgsK feat (invDeg src) src = msgsR feat src := by
  funext y
  obtain ⟨e, j, rfl⟩ : ∃ (e : Fin 1600000) (j : Fin 128), y = ix2 e j := ⟨y 0, y 1, eq_ix2 y⟩
  obtain ⟨s, hs⟩ := deg_apply src (row (startIdx src) e)
  have hL : msgsK feat (invDeg src) src (ix2 e j)
      = feat (ix2 (row (startIdx src) e) j) * Ideal.div 1 (deg src (ix1 (row (startIdx src) e))) := by
    unfold msgsK
    rw [mulf_apply, gatherRows_apply, bc_col_msg_apply, bc_edge_col_apply, gatherDeg_apply, invDeg_apply]
  have hR : msgsR feat src (ix2 e j)
      = Ideal.div (feat (ix2 (row (startIdx src) e) j)) (deg src (ix1 (row (startIdx src) e))) := by
    unfold msgsR
    rw [gatherRows_apply, hostDivf_apply, bc_degcol_node_apply, bc_deg_col_apply]
  rw [hL, hR, hs]
  exact mul_inv_clip _ s

/-- Hence the aggregations of the two spellings are one function. -/
theorem aggK_eq_aggR (feat : FVec Ideal SNode .f32) (src dst : IVec SEdge 32) : aggK feat src dst = aggR feat src dst := by
  unfold aggK aggR
  rw [msgsK_eq_msgsR]

end Cert.GraphConv

end
-- ==== Proof.KernelValue.lean ====
/-
  The idealized kernel program's result array as two applications of the layer over the aggregation.

  Reading the run's fold backwards from the result:
    * the result array is the second region's output: the layer (no activation) of the arrays that region finds;
    * those are: the first region's output `h`, untouched by the host operations in between; the aggregation of `h`
      (rows of `h` and reciprocal degrees gathered by `src`, multiplied, scatter-added by `dst` — the reciprocal
      degrees are the ones computed before the first region); the transposed halves of the second weight; the second
      bias as a row;
    * `h` is the first region's output: the layer with the maximum with 0, of the features, their aggregation, the
      transposed halves of the first weight and the first bias as a row.
  A transposed half read at (k, q) is the weight at (q, k) (left half) or (q, 128 + k) (right half), and the bias row
  at (0, q) is the bias at q; so each region's layer over the halves is the layer `dense` over the weight itself.
-/
import proofs.«112409_j83408264888606_1_alg».proof.Proof.KernelRun
import proofs.«112409_j83408264888606_1_alg».proof.Proof.Region0
import proofs.«112409_j83408264888606_1_alg».proof.Proof.Region1
import proofs.«112409_j83408264888606_1_alg».proof.Proof.AggEq
import Idealize.ShloMosaic.Lib.StableHlo.Run
import Idealize.ShloMosaic.Lib.Pipeline.Value

set_option maxRecDepth 16384

noncomputable section

namespace Cert.KernelIdeal.Hand

open Cert.KernelIdeal Cert.KernelIdeal.Gen Cert.GraphConv
open Idealize.ShloMosaic Idealize.ShloMosaic.TcCoe Idealize.ShloMosaic.ValueIdx Idealize.SL.Sem Idealize.ShloMosaic.StableHlo

/-! ## The program's gather and scatter records are the aggregation's -/

theorem gatherRows_eq : gather_S100000x128_S1600000x1_S1600000x128_1_0_n_n_0_1_1128 = gatherRows := rfl
theorem gatherDeg_eq : gather_S100000_S1600000x1_S1600000_n_0_n_n_0_1_1 = gatherDeg := rfl
theorem scatterRows_eq : scatter_S100000x128_S1600000x1_S1600000x128_1_0_0_1 = scatterRows := rfl
theorem scatterDeg_eq : scatter_S100000_S1600000x1_S1600000_n_0_0_1 = scatterDeg := rfl

/-! ## The transposed halves of a weight and a bias as a row -/

/-- Columns 0 … 127 of a weight, transposed. -/
def halfL (W : FVec Ideal SWeight .f32) : FVec Ideal SHalf .f32 :=
  transpose S128x128 [1, 0] (extractStridedSlice S128x128 ![0, 0] W slices_S128x256_S128x128_0_0) transposes_S128x128_S128x128_1_0
/-- Columns 128 … 255 of a weight, transposed. -/
def halfR (W : FVec Ideal SWeight .f32) : FVec Ideal SHalf .f32 :=
  transpose S128x128 [1, 0] (extractStridedSlice S128x128 ![0, 128] W slices_S128x256_S128x128_0_128) transposes_S128x128_S128x128_1_0
/-- A bias as a 1 × 128 row. -/
def biasRow (b : FVec Ideal SBias .f32) : FVec Ideal SBiasRow .f32 :=
  fun i => shapeCast S1x128 b shapeCasts_S128_S1x128 i

theorem halfL_apply (W : FVec Ideal SWeight .f32) (k q : Fin 128) : halfL W (ix2 k q) = W (ix2 q (colL k)) := by
  unfold halfL
  rw [transpose_apply [1, 0] _ transposes_S128x128_S128x128_1_0 (ix2 k q) (ix2 q k)
    (fun b => match b with | ⟨0, _⟩ => rfl | ⟨1, _⟩ => rfl)]
  exact extractStridedSlice_apply ![0, 0] W slices_S128x256_S128x128_0_0 (ix2 q k) (ix2 q (colL k))
    (fun a => match a with
      | ⟨0, _⟩ => by show q.val = 0 + q.val; omega
      | ⟨1, _⟩ => by show k.val = 0 + k.val; omega)

theorem halfR_apply (W : FVec Ideal SWeight .f32) (k q : Fin 128) : halfR W (ix2 k q) = W (ix2 q (colR k)) := by
  unfold halfR
  rw [transpose_apply [1, 0] _ transposes_S128x128_S128x128_1_0 (ix2 k q) (ix2 q k)
    (fun b => match b with | ⟨0, _⟩ => rfl | ⟨1, _⟩ => rfl)]
  exact extractStridedSlice_apply ![0, 128] W slices_S128x256_S128x128_0_128 (ix2 q k) (ix2 q (colR k))
    (fun a => match a with
      | ⟨0, _⟩ => by show q.val = 0 + q.val; omega
      | ⟨1, _⟩ => by show 128 + k.val = 128 + k.val; rfl)

theorem biasRow_apply (b : FVec Ideal SBias .f32) (q : Fin 128) : biasRow b (ix2 (0 : Fin 1) q) = b (ix1 q) := by
  unfold biasRow
  refine (shapeCast_addUnit_apply ![128] b shapeCasts_S128_S1x128 (ix2 (0 : Fin 1) q)).trans (congrArg b ?_)
  funext a
  match a with
  | ⟨0, _⟩ => rfl

variable (m : (ℓ : Loc nD τ sig) → Buf (Elt Ideal) ℓ) (ρ : Dev nD → PrngReg)

/-! ## The arrays the first region finds -/

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_v27 (c : Dev nD) : V1 m ρ c main_v27
    = aggK (m ((c : Thread nD τ).loc main_arg0)) (m ((c : Thread nD τ).loc main_arg1)) (m ((c : Thread nD τ).loc main_arg2)) := by
  show StableHlo.after hostOps0 (W0 m ρ c) (Proc.devRef .tc main_v27) = _
  after_results_simp
  unfold aggK scatterMsgs msgsK invDeg deg startIdx
  rw [scatterRows_eq, gatherRows_eq, gatherDeg_eq, scatterDeg_eq]

theorem V1_v29 (c : Dev nD) : V1 m ρ c main_v29 = halfL (m ((c : Thread nD τ).loc main_arg3)) := by
  show StableHlo.after hostOps0 (W0 m ρ c) (Proc.devRef .tc main_v29) = _
  after_results_simp <;> rfl

theorem V1_v31 (c : Dev nD) : V1 m ρ c main_v31 = halfR (m ((c : Thread nD τ).loc main_arg3)) := by
  show StableHlo.after hostOps0 (W0 m ρ c) (Proc.devRef .tc main_v31) = _
  after_results_simp <;> rfl

theorem V1_v32 (c : Dev nD) : V1 m ρ c main_v32 = biasRow (m ((c : Thread nD τ).loc main_arg4)) := by
  show StableHlo.after hostOps0 (W0 m ρ c) (Proc.devRef .tc main_v32) = _
  after_results_simp <;> rfl

/-- The hidden layer's features. -/
abbrev hidden (c : Dev nD) : SNode.Idx → EReal :=
  dense true (m ((c : Thread nD τ).loc main_arg0))
    (aggK (m ((c : Thread nD τ).loc main_arg0)) (m ((c : Thread nD τ).loc main_arg1)) (m ((c : Thread nD τ).loc main_arg2)))
    (m ((c : Thread nD τ).loc main_arg3)) (m ((c : Thread nD τ).loc main_arg4))

/-- The first region's output array is the hidden layer. -/
theorem W2_v33 (c : Dev nD) : W2 m ρ c (Proc.devRef .tc main_v33) = hidden m c := by
  refine (W2_arr m ρ c 5).trans ?_
  rw [final0]
  show denseT true (V1 m ρ c main_arg0) (V1 m ρ c main_v27) (V1 m ρ c main_v29) (V1 m ρ c main_v31) (V1 m ρ c main_v32) = _
  rw [V1_arg0, V1_v27, V1_v29, V1_v31, V1_v32]
  exact denseT_eq_dense true _ _ _ _ _ _ _ (halfL_apply _) (halfR_apply _) (biasRow_apply _)

/-! ## What the first region leaves in the buffers it does not write -/

/-- The reciprocal degrees, computed before the first region, are still there after it. -/
theorem W2_v7 (c : Dev nD) : W2 m ρ c (Proc.devRef .tc main_v7) = invDeg (m ((c : Thread nD τ).loc main_arg1)) := by
  refine (W2_of_ne m ρ c main_v7 (by decide)).trans ?_
  show StableHlo.after hostOps0 (W0 m ρ c) (Proc.devRef .tc main_v7) = _
  after_results_simp
  unfold invDeg deg
  rw [scatterDeg_eq]

theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results_simp <;> rfl

theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results_simp <;> rfl

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp <;> rfl

theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp <;> rfl

/-! ## The arrays the second region finds -/

theorem V3_v33 (c : Dev nD) : V3 m ρ c main_v33 = hidden m c := by
  show StableHlo.after hostOps1 (W2 m ρ c) (Proc.devRef .tc main_v33) = _
  after_results_simp
  exact W2_v33 m ρ c

theorem V3_v53 (c : Dev nD) : V3 m ρ c main_v53 = aggK (hidden m c) (m ((c : Thread nD τ).loc main_arg1)) (m ((c : Thread nD τ).loc main_arg2)) := by
  show StableHlo.after hostOps1 (W2 m ρ c) (Proc.devRef .tc main_v53) = _
  after_results_simp
  rw [W2_v33, W2_v7, W2_arg1, W2_arg2]
  unfold aggK scatterMsgs msgsK startIdx
  rw [scatterRows_eq, gatherRows_eq, gatherDeg_eq]

theorem V3_v55 (c : Dev nD) : V3 m ρ c main_v55 = halfL (m ((c : Thread nD τ).loc main_arg5)) := by
  show StableHlo.after hostOps1 (W2 m ρ c) (Proc.devRef .tc main_v55) = _
  after_results_simp
  rw [W2_arg5]
  rfl

theorem V3_v57 (c : Dev nD) : V3 m ρ c main_v57 = halfR (m ((c : Thread nD τ).loc main_arg5)) := by
  show StableHlo.after hostOps1 (W2 m ρ c) (Proc.devRef .tc main_v57) = _
  after_results_simp
  rw [W2_arg5]
  rfl

theorem V3_v58 (c : Dev nD) : V3 m ρ c main_v58 = biasRow (m ((c : Thread nD τ).loc main_arg6)) := by
  show StableHlo.after hostOps1 (W2 m ρ c) (Proc.devRef .tc main_v58) = _
  after_results_simp
  rw [W2_arg6]
  rfl

/-! ## The result -/

/-- The result array of the run: the output layer (no activation) of the hidden layer's features and their aggregation. -/
theorem kernel_value (c : Dev nD) : V4 m ρ c main_v59
    = dense false (hidden m c) (aggK (hidden m c) (m ((c : Thread nD τ).loc main_arg1)) (m ((c : Thread nD τ).loc main_arg2)))
        (m ((c : Thread nD τ).loc main_arg5)) (m ((c : Thread nD τ).loc main_arg6)) := by
  refine (W4_arr m ρ c 5).trans ?_
  rw [final1]
  show denseT false (V3 m ρ c main_v33) (V3 m ρ c main_v53) (V3 m ρ c main_v55) (V3 m ρ c main_v57) (V3 m ρ c main_v58) = _
  rw [V3_v33, V3_v53, V3_v55, V3_v57, V3_v58]
  exact denseT_eq_dense false _ _ _ _ _ _ _ (halfL_apply _) (halfR_apply _) (biasRow_apply _)

end Cert.KernelIdeal.Hand

end
-- ==== Proof.RefValue.lean ====
/-
  The reference program's result as two applications of the layer `dense` over the aggregation `aggR`.

  The program is read one operation at a time. Its aggregation stages are, term for term, the aggregation `aggR` (the same
  scatter-add of the same gathered rows of the features divided by the clipped degrees): only the names of the shapes and
  of the gather and scatter records differ, and those are equal by unfolding. Its dense stage is
  `concat(feat, agg) · Wᵀ + b`: the contraction over the 256 columns of the concatenation splits into the sum over the
  left 128 columns, where the concatenation reads `feat`, and the sum over the right 128, where it reads `agg` at the
  column less 128; the transposed weight read at (k, q) is `W` at (q, k); the twice broadcast bias read at (p, q) is `b`
  at q. The hidden layer then takes the maximum with a broadcast constant whose value is the extended real 0.
-/
import proofs.«112409_j83408264888606_1_alg».proof.Proof.Gen.ReferenceIdeal.Read
import proofs.«112409_j83408264888606_1_alg».proof.Proof.Agg

noncomputable section

namespace Cert.GraphConv.Ref

open Idealize.ShloMosaic Idealize.ShloMosaic.ValueIdx Cert.GraphConv
open Cert.ReferenceIdeal Cert.ReferenceIdeal.Gen Cert.ReferenceIdeal.Read

/-! ## The aggregation stages are `aggR` -/

/-- The reference's row gather record is the row gather. -/
theorem gatherRows_eq : gather_S100000x128_S1600000x1_S1600000x128_1_0_n_n_0_1_1128 = gatherRows := rfl
/-- The reference's row scatter record is the row scatter. -/
theorem scatterRows_eq : scatter_S100000x128_S1600000x1_S1600000x128_1_0_0_1 = scatterRows := rfl
/-- The reference's degree scatter record is the degree scatter. -/
theorem scatterDeg_eq : scatter_S100000_S1600000x1_S1600000_n_0_0_1 = scatterDeg := rfl

/-- The clipped out-degrees of the first layer. -/
theorem deg_eq (x1 : IVec SEdge 32) : val_main_v5 (F := Ideal) x1 = deg x1 := by
  unfold val_main_v5 val_main_v3 deg
  rw [scatterDeg_eq]
  rfl

/-- The clipped out-degrees of the second layer: the same term again. -/
theorem deg_eq' (x1 : IVec SEdge 32) : val_main_v31 (F := Ideal) x1 = deg x1 := by
  unfold val_main_v31 val_main_v29 deg
  rw [scatterDeg_eq]
  rfl

/-- The gathers' start indices, first layer. -/
theorem start_eq (x1 : IVec SEdge 32) : val_main_v14 (F := Ideal) x1 = startIdx x1 := rfl
/-- The gathers' start indices, second layer. -/
theorem start_eq' (x1 : IVec SEdge 32) : val_main_v40 (F := Ideal) x1 = startIdx x1 := rfl

/-- The first layer's aggregate. -/
theorem agg_eq (x0 : FVec Ideal SNode .f32) (x1 x2 : IVec SEdge 32) :
    val_main_v18 (F := Ideal) x0 x1 x2 = aggR x0 x1 x2 := by
  unfold val_main_v18 val_main_v15 val_main_v8 val_main_v7 val_main_v6 aggR scatterMsgs msgsR
  rw [scatterRows_eq, gatherRows_eq, deg_eq, start_eq]
  rfl

/-- The second layer's aggregate, over the hidden layer's features. -/
theorem agg_eq' (x0 : FVec Ideal SNode .f32) (x1 x2 : IVec SEdge 32) (x3 : FVec Ideal SWeight .f32)
    (x4 : FVec Ideal SBias .f32) :
    val_main_v44 (F := Ideal) x0 x1 x2 x3 x4 = aggR (val_main_v25 (F := Ideal) x0 x1 x2 x3 x4) x1 x2 := by
  unfold val_main_v44 val_main_v41 val_main_v34 val_main_v33 val_main_v32 aggR scatterMsgs msgsR
  rw [scatterRows_eq, gatherRows_eq, deg_eq', start_eq']
  rfl

/-! ## The dense stage at an index -/

/-- An entry of `concat(feat, agg) · Wᵀ + b` is the layer's entry `lin`. -/
theorem lin_read (feat agg : FVec Ideal SNode .f32) (W : FVec Ideal SWeight .f32) (b : FVec Ideal SBias .f32)
    (i : SNode.Idx) :
    (∑ k : Fin 256,
        (concatenate S100000x256 1 [⟨S100000x128, feat⟩, ⟨S100000x128, agg⟩]
          concatenates_S100000x128_S100000x128_S100000x256_d1) (lidx_main_v21 i k)
          * val_main_v20 (F := Ideal) W (ridx_main_v21 i k))
      + val_main_v23 (F := Ideal) b i = lin feat agg W b (i 0) (i 1) := by
  unfold lin
  rw [val_main_v23_apply, val_main_v22_apply, sum_split]
  refine congrArg₂ (· + ·) (congrArg₂ (· + ·) (Finset.sum_congr rfl fun k _ => ?_)
    (Finset.sum_congr rfl fun k _ => ?_)) ?_
  · -- a left column: the concatenation reads the features
    rw [val_main_v20_apply]
    refine congrArg₂ (· * ·) ?_ (congrArg W ?_)
    · exact concatenate_pair_apply_left 1 feat agg _ (lidx_main_v21 i (colL k)) rfl (ix2 (i 0) k)
        (fun b => match b with | ⟨0, _⟩ => rfl | ⟨1, _⟩ => rfl)
    · funext a; match a with | ⟨0, _⟩ => rfl | ⟨1, _⟩ => rfl
  · -- a right column 128 + k: the concatenation reads the aggregate at column k
    rw [val_main_v20_apply]
    refine congrArg₂ (· * ·) ?_ (congrArg W ?_)
    · exact concatenate_pair_apply_right 1 feat agg _ (lidx_main_v21 i (colR k)) rfl rfl (ix2 (i 0) k)
        (fun b hb => match b, hb with | ⟨0, _⟩, _ => rfl | ⟨1, _⟩, hb => absurd rfl hb)
        (by show k.val + 128 = 128 + k.val; omega)
    · funext a; match a with | ⟨0, _⟩ => rfl | ⟨1, _⟩ => rfl
  · -- the bias
    refine congrArg b ?_
    funext a; match a with | ⟨0, _⟩ => rfl

/-! ## The two layers -/

/-- The hidden layer. -/
theorem hidden_eq (x0 : FVec Ideal SNode .f32) (x1 x2 : IVec SEdge 32) (x3 : FVec Ideal SWeight .f32)
    (x4 : FVec Ideal SBias .f32) :
    val_main_v25 (F := Ideal) x0 x1 x2 x3 x4 = dense true x0 (aggR x0 x1 x2) x3 x4 := by
  funext i
  rw [val_main_v25_apply, val_main_v24_apply, val_main_v21_apply, val_main_call0_v0_apply,
    val_main_call0_cst_apply]
  unfold val_main_v19
  rw [agg_eq, Ideal.maximumf_def, Ideal.addf_def, Ideal.ofBits_def, Ideal.ofBits_zero_f32, lin_read]
  rfl

/-- The reference's result: the output layer (no activation) over the hidden layer's features and their aggregate. -/
theorem ref_value (x0 : FVec Ideal SNode .f32) (x1 x2 : IVec SEdge 32) (x3 : FVec Ideal SWeight .f32)
    (x4 : FVec Ideal SBias .f32) (x5 : FVec Ideal SWeight .f32) (x6 : FVec Ideal SBias .f32) :
    Cert.ReferenceIdeal.Read.val_main_v50 (F := Ideal) x0 x1 x2 x3 x4 x5 x6
      = dense false (dense true x0 (aggR x0 x1 x2) x3 x4) (aggR (dense true x0 (aggR x0 x1 x2) x3 x4) x1 x2) x5 x6 := by
  funext i
  rw [val_main_v50_apply, val_main_v47_apply]
  unfold val_main_v45
  rw [agg_eq', hidden_eq, Ideal.addf_def]
  exact lin_read _ _ x5 x6 i

end Cert.GraphConv.Ref

end
-- ==== Proof.lean ====
/-
  Two graph-convolution layers (N = 100000 nodes, E = 1600000 edges, 128 features), a tiled kernel program against a
  plain reference, equal over the extended reals.

  Both programs compute, for l = 0, 1,

      agg_l = ∑ over the edges into a node of  h_l[source] / max(outdeg(source), 1),
      h_{l+1} = act_l( concat(h_l, agg_l) · W_lᵀ + b_l ),        act_0 = max(·, 0),  act_1 = the identity,

  and differ in two places. (1) The reference divides every row of h_l by its degree and then gathers the rows by
  `src`; the kernel program gathers the rows and the reciprocal degrees 1 / deg separately and multiplies. A gather
  reads one element of its operand per result element, the same row for both gathers, and deg ≥ 1 is not 0, so both
  messages are h_l[r, j] · deg[r]⁻¹ (AggEq). (2) The reference contracts the 256 columns of the concatenation against
  W_lᵀ in one product; the kernel program multiplies row blocks of h_l and of agg_l by the transposed left and right
  halves of W_l and adds. A sum over 256 columns is the sum over the left 128 plus the sum over the right 128, in any
  commutative monoid (Spec). Neither step asks the inputs to be finite, so the precondition is never opened.

  The kernel program's result is read off its run (KernelRun: the four segments' fold with the result array kept)
  through each region's output as one function of the arrays it finds (Payload, Region0, Region1) and the host
  operations around them (KernelValue); the reference's off its generated run, one operation at a time (RefValue).
  Both are `dense false h (agg h) W₁ b₁` with `h = dense true x (agg x) W₀ b₀`.

  The three frames: the two kernel programs' are the generated frame certificates; the reference has no kernel and its
  frame is its run with the result dropped. The idealization rewrote nothing, so `preserves` is `True`.
-/
import proofs.«112409_j83408264888606_1_alg».proof.Defs
import proofs.«112409_j83408264888606_1_alg».proof.Proof.Gen.Kernel
import proofs.«112409_j83408264888606_1_alg».proof.Proof.Gen.Kernel.Skeleton
import proofs.«112409_j83408264888606_1_alg».proof.Proof.Gen.Kernel.Launch
import proofs.«112409_j83408264888606_1_alg».proof.Proof.Gen.Kernel.Points
import proofs.«112409_j83408264888606_1_alg».proof.Proof.Gen.Kernel.Frame
import proofs.«112409_j83408264888606_1_alg».proof.Proof.Gen.KernelIdeal
import proofs.«112409_j83408264888606_1_alg».proof.Proof.Gen.KernelIdeal.Skeleton
import proofs.«112409_j83408264888606_1_alg».proof.Proof.Gen.KernelIdeal.Launch
import proofs.«112409_j83408264888606_1_alg».proof.Proof.Gen.KernelIdeal.Points
import proofs.«112409_j83408264888606_1_alg».proof.Proof.Gen.KernelIdeal.Frame
import proofs.«112409_j83408264888606_1_alg».proof.Proof.Gen.ReferenceIdeal
import proofs.«112409_j83408264888606_1_alg».proof.Proof.Gen.Pre_finite_inputs
import proofs.«112409_j83408264888606_1_alg».proof.Proof.Gen.ReferenceIdeal.Run
import proofs.«112409_j83408264888606_1_alg».proof.Proof.Gen.ReferenceIdeal.Read
import proofs.«112409_j83408264888606_1_alg».proof.Proof.KernelRun
import proofs.«112409_j83408264888606_1_alg».proof.Proof.KernelValue
import proofs.«112409_j83408264888606_1_alg».proof.Proof.RefValue
import proofs.«112409_j83408264888606_1_alg».proof.Proof.AggEq
import Idealize.ShloMosaic.Adequacy
import Idealize.ShloMosaic.Init

noncomputable section

namespace Cert.Proof

open Idealize.ShloMosaic Idealize.SL.Sem Cert.GraphConv

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result array: two layers over the same
    aggregation. -/
theorem algebraic : Cert.algebraic_KernelIdeal_ReferenceIdeal := by
  intro m ρ m' ρ' _ hagree
  refine ⟨fun c => Cert.KernelIdeal.Gen.V4 m ρ c Cert.KernelIdeal.main_v59, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v50_eq, h0, h1, h2, h3, h4, h5, h6]
  refine (Cert.GraphConv.Ref.ref_value _ _ _ _ _ _ _).trans (Eq.trans ?_ (Cert.KernelIdeal.Hand.kernel_value m ρ c).symm)
  unfold Cert.KernelIdeal.Hand.hidden
  rw [aggK_eq_aggR, aggK_eq_aggR]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
